-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x128 .f32) (main_arg1 : FVec F S128x64 .f32) (main_arg2 : IVec S800000 32) (main_arg3 : IVec S800000 32) (main_arg4 : FVec F S800000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S50000x128 : Shape := ⟨2, ![50000, 128]⟩
abbrev S128x64 : Shape := ⟨2, ![128, 64]⟩
abbrev S800000 : Shape := ⟨1, ![800000]⟩
abbrev S50000x64 : Shape := ⟨2, ![50000, 64]⟩
abbrev S5000x128 : Shape := ⟨2, ![5000, 128]⟩
abbrev S5000x64 : Shape := ⟨2, ![5000, 64]⟩
abbrev S800000x1 : Shape := ⟨2, ![800000, 1]⟩
abbrev S_ : Shape := ⟨0, ![]⟩
abbrev S800000x64 : Shape := ⟨2, ![800000, 64]⟩

abbrev nBuf : Space → Nat
  | .hbm => 23
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S800000 : Shape := ⟨1, ![800000]⟩
abbrev S50000x64 : Shape := ⟨2, ![50000, 64]⟩
abbrev S800000x1 : Shape := ⟨2, ![800000, 1]⟩
abbrev S_ : Shape := ⟨0, ![]⟩
abbrev S800000x64 : Shape := ⟨2, ![800000, 64]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S50000x64, .f32⟩
  | .hbm, ⟨24, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel program's run, with its result array named.

  The program is three segments: the dense-product call, sixteen host operations (the gather of neighbour rows, the
  scaling by the edge weights, the accumulating scatter by destination row), and the activation call. The generated
  frame module already folds the TensorCore's buffer contents through the three segments (`Gen.W0 … Gen.W3`) and
  supplies every segment's record; its own conclusion keeps only the argument arrays. Here the same launch is read
  once more at the result buffer as well: after the run it holds `Gen.W3` at that buffer, the last valuation of the
  fold. What that valuation IS, as a function of the arguments, is the business of the modules that import this one.
-/
import proofs.«126200_j42391327212273_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    valuation of the fold through the three segments, and the five argument arrays hold what they were launched with. -/
theorem run_result : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Whole

end
-- ==== Proof.Dense.lean ====
/-
  The dense product x · W, as the first call leaves it.

  The call walks ten tiles of 5000 rows. At tile `t` the body loads rows `5000·t … 5000·t + 4999` of x (all 128
  columns) and the whole 128 × 64 weight, and stores their product into the matching 5000 × 64 tile of the output.
  Read on the extended reals the narrowing of both operands to the short format is the identity and the product into a
  zero accumulator is the plain sum over the 128 contraction positions. So entry (r, q) of the output depends on row
  r of x and column q of the weight only, it is the same sum whichever tile r falls in, and the ten tiles cover every
  row: the whole output array ends as `product x W`, entry (r, q) = Σₖ x(r, k) · W(k, q).
-/
import proofs.«126200_j42391327212273_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense

open Cert.KernelIdeal Cert.KernelIdeal.Gen
open Idealize.ShloMosaic Idealize.ShloMosaic.TcCoe Idealize.SL.Sem Idealize.ShloMosaic.ValueIdx
open Idealize.ShloMosaic.Pipeline (Dat)

/-! ## The specification -/

/-- Position (r, k) of x, for the output entry `i` = (r, q). -/
abbrev rowAt (i : S50000x64.Idx) (k : Fin 128) : S50000x128.Idx := fun a => match a with
  | ⟨0, _⟩ => ⟨(i 0).val, (i 0).isLt⟩
  | ⟨1, _⟩ => ⟨k.val, k.isLt⟩
/-- Position (k, q) of the weight, for the output entry `i` = (r, q). -/
abbrev colAt (i : S50000x64.Idx) (k : Fin 128) : S128x64.Idx := fun a => match a with
  | ⟨0, _⟩ => ⟨k.val, k.isLt⟩
  | ⟨1, _⟩ => ⟨(i 1).val, (i 1).isLt⟩

/-- The matrix product on the extended reals: entry (r, q) is the sum over k of x(r, k) · W(k, q). -/
def product (x : Vec Ideal S50000x128 .f32) (w : Vec Ideal S128x64 .f32) : Vec Ideal S50000x64 .f32 :=
  fun i => ∑ k : Fin 128, x (rowAt i k) * w (colAt i k)

/-! ## One tile's product at an entry -/

/-- Position (p, k) of a 5000-row tile of x, for the tile's output entry `y` = (p, q). -/
abbrev tileRow (y : S5000x64.Idx) (k : Fin 128) : S5000x128.Idx := fun a => match a with
  | ⟨0, _⟩ => ⟨(y 0).val, (y 0).isLt⟩
  | ⟨1, _⟩ => ⟨k.val, k.isLt⟩
/-- Position (k, q) of the weight, for the tile's output entry `y` = (p, q). -/
abbrev tileCol (y : S5000x64.Idx) (k : Fin 128) : S128x64.Idx := fun a => match a with
  | ⟨0, _⟩ => ⟨k.val, k.isLt⟩
  | ⟨1, _⟩ => ⟨(y 1).val, (y 1).isLt⟩

/-- The left operand is read at the output's row … -/
theorem lhs_row (y : S5000x64.Idx) (q : dot_S5000x128_S128x64_S5000x64_1_0_0_1_n_n.contr.Idx) :
    (dot_S5000x128_S128x64_S5000x64_1_0_0_1_n_n.lhsIdx y q 0).val = (y 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and at the contraction position on its second axis; -/
theorem lhs_contr (y : S5000x64.Idx) (q : dot_S5000x128_S128x64_S5000x64_1_0_0_1_n_n.contr.Idx) :
    (dot_S5000x128_S128x64_S5000x64_1_0_0_1_n_n.lhsIdx y q 1).val = (q ⟨0, by decide⟩).val :=
  dot_S5000x128_S128x64_S5000x64_1_0_0_1_n_n.lhsIdx_val_of_single rfl y q
/-- the right operand at the contraction position on its first axis … -/
theorem rhs_contr (y : S5000x64.Idx) (q : dot_S5000x128_S128x64_S5000x64_1_0_0_1_n_n.contr.Idx) :
    (dot_S5000x128_S128x64_S5000x64_1_0_0_1_n_n.rhsIdx y q 0).val = (q ⟨0, by decide⟩).val :=
  dot_S5000x128_S128x64_S5000x64_1_0_0_1_n_n.rhsIdx_val_of_single rfl y q
/-- … and at the output's column. -/
theorem rhs_col (y : S5000x64.Idx) (q : dot_S5000x128_S128x64_S5000x64_1_0_0_1_n_n.contr.Idx) :
    (dot_S5000x128_S128x64_S5000x64_1_0_0_1_n_n.rhsIdx y q 1).val = (y 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores, at entry (p, q) of the tile: the sum over the 128 contraction positions of the loaded rows of
    x against the weight's columns. Narrowing to the short format changes nothing on the extended reals, and the zero
    accumulator adds nothing. -/
theorem tile_apply (x0 : Vec Ideal S5000x128 .f32) (x1 : Vec Ideal S128x64 .f32) (y : S5000x64.Idx) :
    k0_pay1 (F := Ideal) x0 x1 y = ∑ k : Fin 128, x0 (tileRow y k) * x1 (tileCol y k) := by
  unfold k0_pay1
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx y ((ValueIdx.contrEquiv1 dot_S5000x128_S128x64_S5000x64_1_0_0_1_n_n 128 rfl rfl).symm k) = tileRow y k := funext fun a => Fin.ext (by
    match a with
    | ⟨0, _⟩ => exact lhs_row _ _
    | ⟨1, _⟩ => exact (lhs_contr _ _).trans hk)
  have er : dot_S5000x128_S128x64_S5000x64_1_0_0_1_n_n.rhsIdx y ((ValueIdx.contrEquiv1 dot_S5000x128_S128x64_S5000x64_1_0_0_1_n_n 128 rfl rfl).symm k) = tileCol y k := funext fun a => Fin.ext (by
    match a with
    | ⟨0, _⟩ => exact (rhs_contr _ _).trans hk
    | ⟨1, _⟩ => exact rhs_col _ _)
  rw [el, er]
  rfl

/-! ## From the tiles to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten tiles: x and the output move together down the rows, one tile per point; the
    weight stays where it is; no map moves along the columns. -/
theorem tile_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile `t` writes back is tile `t` of `product x W`. -/
theorem flushed_product (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := tile_indices t
  funext j
  show k0_pay1 (F := Ideal) (iblk0 V c 0 t) (iblk0 V c 1 t) j = product (V c main_arg0) (V c main_arg1) (((cfg0.win 2).blk t).view.emb j)
  refine (tile_apply _ _ j).trans ?_
  unfold product
  refine Finset.sum_congr rfl fun k _ => ?_
  have hj0 : (j 0).val < 5000 := (j 0).isLt
  have hj1 : (j 1).val < 64 := (j 1).isLt
  have hk : k.val < 128 := k.isLt
  have hx : iblk0 V c 0 t (tileRow j k) = V c main_arg0 (rowAt (((cfg0.win 2).blk t).view.emb j) k) := by
    show V c main_arg0 (((cfg0.win 0).blk t).view.emb (tileRow j k)) = V c main_arg0 _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (tileCol j k) = V c main_arg1 (colAt (((cfg0.win 2).blk t).view.emb j) k) := by
    show V c main_arg1 (((cfg0.win 1).blk t).view.emb (tileCol j k)) = V c main_arg1 _
    congr 1
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hx, hw]

/-- An entry of the array is in tile `t` iff each coordinate is in the tile's range on its axis. -/
theorem mem_tile (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row r lies in tile r / 5000, and every tile is written back. -/
theorem tiles_cover (i : S50000x64.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 64 := (i 1).isLt
  have ht : (i 0).val / 5000 < cfg0.N := by rw [hN]; omega
  refine ⟨⟨(i 0).val / 5000, ht⟩, flush0_2 _, ?_⟩
  rw [mem_tile]
  obtain ⟨-, -, -, -, e4, e5⟩ := tile_indices ⟨(i 0).val / 5000, ht⟩
  have e4' : win0_2.index ⟨(i 0).val / 5000, ht⟩ (0 : Fin 2) = (i 0).val / 5000 := e4
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 64 ≤ (i 1).val ∧ (i 1).val < win0_2.index ⟨(i 0).val / 5000, ht⟩ (1 : Fin 2) * 64 + 64; omega

/-- The output array after the call: the product of the two arrays the call found in its first two operands. -/
theorem final_product (c : Dev nD) :
    (dat0 V c).arrAt 2 cfg0.N = product (V c main_arg0) (V c main_arg1) :=
  (dat0 V c).arrAt_eq_of_cover 2 (product (V c main_arg0) (V c main_arg1)) (fun t _ => flushed_product V c t) tiles_cover

end Cert.KernelIdeal.Dense

end
-- ==== Proof.Activation.lean ====
/-
  The activation max(·, 0), as the second call leaves it.

  The call walks the same ten tiles of 5000 rows over the aggregate array. At tile `t` the body loads its tile, takes
  the larger of each entry and the zero constant, and stores the result into the matching tile of the output. The
  body works entry by entry, the input and output tiles sit at the same rows, and the ten tiles cover every row: the
  whole output array ends as `relu v`, entry i = max (v i) 0, for `v` the array the call found in its operand.
-/
import proofs.«126200_j42391327212273_1_alg».proof.Proof.Gen.KernelIdeal.Frame
import Idealize.ShloMosaic.Lib.Pipeline.Value
import Idealize.ShloMosaic.Lib.ValueIdx

set_option maxRecDepth 16384

noncomputable section

namespace Cert.KernelIdeal.Activation

open Cert.KernelIdeal Cert.KernelIdeal.Gen
open Idealize.ShloMosaic Idealize.ShloMosaic.TcCoe Idealize.SL.Sem Idealize.ShloMosaic.ValueIdx
open Idealize.ShloMosaic.Pipeline (Dat)

/-- The activation on the extended reals, entry by entry: the larger of the entry and the zero constant (kept as the
    constant's word: both programs spell the same word, so it is never evaluated). -/
def relu (v : Vec Ideal S50000x64 .f32) : Vec Ideal S50000x64 .f32 :=
  fun i => max (v i) (Ideal.ofBits .f32 0x00000000#32)

/-- What the body stores, at an entry of the tile: the larger of the loaded entry and zero (the cast to the tile's own
    shape is the identity). -/
theorem tile_apply (x : Vec Ideal S5000x64 .f32) (y : S5000x64.Idx) :
    k1_pay1 (F := Ideal) x y = max (x y) (Ideal.ofBits .f32 0x00000000#32) := by
  unfold k1_pay1
  simp only [shapeCast_self]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten tiles: input and output move together down the rows, one tile per point, and
    neither moves along the columns. -/
theorem tile_indices : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What tile `t` writes back is tile `t` of `relu` of the operand array. -/
theorem flushed_relu (c : Dev nD) (t : Fin cfg1.N) :
    (dat1 V c).flushed 1 t = ((cfg1.win 1).blk t).view.read (Elt Ideal) (relu (V c main_v13)) := by
  show (cfg1.win 1).cut (grid1.coords t) ((dat1 V c).after 1 t) = _
  rw [after1_1]
  unfold out1_1
  rw [View.canon_unit_zero zero_offsets]
  simp only [View.ld_unit_zero (S := S5000x64) zero_offsets]
  obtain ⟨e0, e1, e2, e3⟩ := tile_indices t
  funext j
  show k1_pay1 (F := Ideal) (iblk1 V c 0 t) j = relu (V c main_v13) (((cfg1.win 1).blk t).view.emb j)
  refine (tile_apply _ j).trans ?_
  unfold relu
  have hj0 : (j 0).val < 5000 := (j 0).isLt
  have hj1 : (j 1).val < 64 := (j 1).isLt
  have hx : iblk1 V c 0 t j = V c main_v13 (((cfg1.win 1).blk t).view.emb j) := by
    show V c main_v13 (((cfg1.win 0).blk t).view.emb j) = V c main_v13 _
    refine congrArg (V c main_v13) ?_
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 64 + 1 * (j 1).val = win1_1.index t (1 : Fin 2) * 64 + 1 * (j 1).val; omega
  rw [hx]

/-- An entry of the array is in tile `t` iff each coordinate is in the tile's range on its axis. -/
theorem mem_tile (t : Fin cfg1.N) (i : S50000x64.Idx) :
    i ∈ ((cfg1.win 1).blk t).view.set ↔ ∀ a : Fin 2, win1_1.index t a * S5000x64.size a ≤ (i a).val ∧ (i a).val < win1_1.index t a * S5000x64.size a + S5000x64.size a := by
  show i ∈ ((View.whole main_v14).slice (win1_1.rect t)).set ↔ _
  rw [View.set_slice_whole, Rect.mem_set_unit]
  exact Iff.rfl

/-- Row r lies in tile r / 5000, and every tile is written back. -/
theorem tiles_cover (i : S50000x64.Idx) :
    ∃ t : Fin cfg1.N, (cfg1.win 1).flush t = true ∧ i ∈ ((cfg1.win 1).blk t).view.set := by
  have hN : cfg1.N = 10 := N_1
  have hi0 : (i 0).val < 50000 := (i 0).isLt
  have hi1 : (i 1).val < 64 := (i 1).isLt
  have ht : (i 0).val / 5000 < cfg1.N := by rw [hN]; omega
  refine ⟨⟨(i 0).val / 5000, ht⟩, flush1_1 _, ?_⟩
  rw [mem_tile]
  obtain ⟨-, -, e2, e3⟩ := tile_indices ⟨(i 0).val / 5000, ht⟩
  have e2' : win1_1.index ⟨(i 0).val / 5000, ht⟩ (0 : Fin 2) = (i 0).val / 5000 := e2
  intro a
  match a with
  | ⟨0, _⟩ => show win1_1.index ⟨(i 0).val / 5000, ht⟩ (0 : Fin 2) * 5000 ≤ (i 0).val ∧ (i 0).val < win1_1.index ⟨(i 0).val / 5000, ht⟩ (0 : Fin 2) * 5000 + 5000; omega
  | ⟨1, _⟩ => show win1_1.index ⟨(i 0).val / 5000, ht⟩ (1 : Fin 2) * 64 ≤ (i 1).val ∧ (i 1).val < win1_1.index ⟨(i 0).val / 5000, ht⟩ (1 : Fin 2) * 64 + 64; omega

/-- The output array after the call: `relu` of the array the call found in its operand. -/
theorem final_relu (c : Dev nD) :
    (dat1 V c).arrAt 1 cfg1.N = relu (V c main_v13) :=
  (dat1 V c).arrAt_eq_of_cover 1 (relu (V c main_v13)) (fun t _ => flushed_relu V c t) tiles_cover

end Cert.KernelIdeal.Activation

end
-- ==== Proof.Middle.lean ====
/-
  Between the two calls: the sparse aggregation, on the host.

  Sixteen host operations turn the dense product `xw` and the three edge arrays (destination row, source column, edge
  weight) into the aggregate: the source columns are wrapped (a negative index has the row count added), the rows of
  `xw` at those columns are gathered, each gathered row is scaled by its edge's weight, and the scaled rows are added
  into a zero array at the destination rows. Here the sixteen operations are written once as one function,
  `aggregate`, and the array the second call finds in its operand is that function of the array the first call left
  and of the three edge arrays, none of which the first call wrote.
-/
import proofs.«126200_j42391327212273_1_alg».proof.Proof.Gen.KernelIdeal.Frame
import Idealize.ShloMosaic.Lib.StableHlo.Run

set_option maxRecDepth 16384

noncomputable section

namespace Cert.KernelIdeal.Middle

open Cert.KernelIdeal Cert.KernelIdeal.Gen
open Idealize.ShloMosaic Idealize.ShloMosaic.TcCoe Idealize.SL.Sem Idealize.ShloMosaic.StableHlo

variable {F : FTy → Type} [FloatOps F]

/-- Gather the rows of `xw` at the wrapped source columns, scale each by its edge weight, and add them into a zero
    array at the destination rows. -/
def aggregate (xw : (⟨S50000x64, .f32⟩ : BufTy).Contents (Elt F)) (row col : (⟨S800000, .i32⟩ : BufTy).Contents (Elt F))
    (val : (⟨S800000, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 row)
    (mulf (broadcastInDim S800000x64 ![0, 1] bcast_S800000x1_S800000x64_0_1 (broadcastInDim S800000x1 ![0] bcast_S800000_S800000x1_0 val))
      (Host.gather gather_S50000x64_S800000x1_S800000x64_1_0_n_n_0_1_164 xw
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

variable (m : (ℓ : Loc nD τ sig) → Buf (Elt F) ℓ) (ρ : Dev nD → PrngReg)

/-- The second call's operand, as the call finds it: `aggregate` of what the buffers held when the first call ended. -/
theorem operand_eq (c : Dev nD) :
    V2 m ρ c main_v13 = aggregate (V1 m ρ c main_v0) (V1 m ρ c main_arg2) (V1 m ρ c main_arg3) (V1 m ρ c main_arg4) := by
  show StableHlo.after hostOps1 (W1 m ρ c) (Proc.devRef .tc main_v13) = _
  after_results
  rfl

/-- The first call writes none of the three edge arrays. -/
theorem rows_kept (c : Dev nD) : V1 m ρ c main_arg2 = m ((c : Thread nD τ).loc main_arg2) := W1_of_ne m ρ c main_arg2 (by decide)
theorem cols_kept (c : Dev nD) : V1 m ρ c main_arg3 = m ((c : Thread nD τ).loc main_arg3) := W1_of_ne m ρ c main_arg3 (by decide)
theorem weights_kept (c : Dev nD) : V1 m ρ c main_arg4 = m ((c : Thread nD τ).loc main_arg4) := W1_of_ne m ρ c main_arg4 (by decide)

end Cert.KernelIdeal.Middle

end
-- ==== Proof.Layer.lean ====
/-
  The idealized kernel program, whole: one graph-convolution layer as one function of its five arguments.

  `layer x W row col val = relu (aggregate (product x W) row col val)`: the dense product, the sparse aggregation over
  the edges, the activation. The first call leaves `product x W` in its output array and touches no edge array; the
  host operations make `aggregate` of it; the second call leaves `relu` of that in the program's result array. So
  the last valuation of the fold through the three segments, at the result buffer, is `layer` of the launch contents
  of the five arguments, and the run ends with the result array holding it.
-/
import proofs.«126200_j42391327212273_1_alg».proof.Proof.KernelRun
import proofs.«126200_j42391327212273_1_alg».proof.Proof.Dense
import proofs.«126200_j42391327212273_1_alg».proof.Proof.Activation
import proofs.«126200_j42391327212273_1_alg».proof.Proof.Middle

set_option maxRecDepth 16384

noncomputable section

namespace Cert.KernelIdeal.Whole

open Cert.KernelIdeal Cert.KernelIdeal.Gen
open Idealize.ShloMosaic Idealize.ShloMosaic.TcCoe Idealize.SL.Sem

/-- One layer on the extended reals: `relu (A · (x · W))`, the adjacency `A` given by its edge list. -/
def layer (x : Vec Ideal S50000x128 .f32) (w : Vec Ideal S128x64 .f32) (row col : (⟨S800000, .i32⟩ : BufTy).Contents (Elt Ideal))
    (val : Vec Ideal S800000 .f32) : Vec Ideal S50000x64 .f32 :=
  Activation.relu (Middle.aggregate (F := Ideal) (Dense.product x w) row col val)

variable (m : (ℓ : Loc nD τ sig) → Buf (Elt Ideal) ℓ) (ρ : Dev nD → PrngReg)

/-- When the first call ends its output array holds the dense product of the two launched matrices. -/
theorem product_left (c : Dev nD) :
    V1 m ρ c main_v0 = Dense.product (m ((c : Thread nD τ).loc main_arg0)) (m ((c : Thread nD τ).loc main_arg1)) :=
  (W1_arr m ρ c 2).trans (Dense.final_product (V0 m ρ) c)

/-- The result buffer's contents after the three segments: the layer of the launched arguments. -/
theorem last_valuation (c : Dev nD) :
    W3 m ρ c (Proc.devRef .tc main_v14)
      = layer (m ((c : Thread nD τ).loc main_arg0)) (m ((c : Thread nD τ).loc main_arg1)) (m ((c : Thread nD τ).loc main_arg2))
          (m ((c : Thread nD τ).loc main_arg3)) (m ((c : Thread nD τ).loc main_arg4)) := by
  refine (W3_arr m ρ c 1).trans ?_
  rw [Activation.final_relu (V2 m ρ) c, Middle.operand_eq m ρ c, Middle.rows_kept m ρ c, Middle.cols_kept m ρ c,
    Middle.weights_kept m ρ c, product_left m ρ c]
  rfl

/-- Every weakly fair execution terminates without a fault, the result array holding the layer of the launched
    arguments and the arguments unchanged. -/
theorem run : θ_run defs (onTc (τ := τ) (main (F := Ideal))) ⟨m, fun _ => 0, ρ⟩ (fun r => ∀ c : Dev nD,
      r.2.mem ((c.tc : Thread nD τ).loc main_v14)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (last_valuation m ρ c), (h c).2⟩) (run_result m ρ)

end Cert.KernelIdeal.Whole

end
-- ==== Proof.Reference.lean ====
/-
  The reference program computes the same layer.

  Its run ends with the result array at the composed term of its twenty host operations. Read one operation at a
  time: the `dot_general` at an entry is the sum over the 128 contraction positions of x's row against the weight's
  column, which is `product`; the thirteen operations after it are, word for word, the kernel program's host
  operations between its two calls, which is `aggregate`; the final `maximum` against a splat of the zero constant
  is `relu`. No law of arithmetic is used beyond reading the two matrix products as the same finite sum, so nothing
  here needs the inputs to be finite.
-/
import proofs.«126200_j42391327212273_1_alg».proof.Proof.Gen.ReferenceIdeal.Run
import proofs.«126200_j42391327212273_1_alg».proof.Proof.Gen.ReferenceIdeal.Read
import proofs.«126200_j42391327212273_1_alg».proof.Proof.Layer

set_option maxRecDepth 16384

noncomputable section

namespace Cert.ReferenceIdeal.AsLayer

open Cert.ReferenceIdeal Cert.ReferenceIdeal.Gen Cert.ReferenceIdeal.Read
open Idealize.ShloMosaic Idealize.ShloMosaic.TcCoe Idealize.SL.Sem

/-- The host's `dot_general` is the dense product: the same sum at every entry. -/
theorem product_eq (x : (⟨S50000x128, .f32⟩ : BufTy).Contents (Elt Ideal)) (w : (⟨S128x64, .f32⟩ : BufTy).Contents (Elt Ideal)) :
    val_main_v0 (F := Ideal) x w = Cert.KernelIdeal.Dense.product x w := by
  funext i
  rw [val_main_v0_apply]
  rfl

/-- The reference's result is the layer of its arguments. -/
theorem result_eq (x : (⟨S50000x128, .f32⟩ : BufTy).Contents (Elt Ideal)) (w : (⟨S128x64, .f32⟩ : BufTy).Contents (Elt Ideal))
    (row col : (⟨S800000, .i32⟩ : BufTy).Contents (Elt Ideal)) (val : (⟨S800000, .f32⟩ : BufTy).Contents (Elt Ideal)) :
    val_main_v14 (F := Ideal) x w row col val = Cert.KernelIdeal.Whole.layer x w row col val := by
  have hagg : val_main_v13 (F := Ideal) x w row col val
      = Cert.KernelIdeal.Middle.aggregate (F := Ideal) (val_main_v0 (F := Ideal) x w) row col val := rfl
  funext i
  rw [val_main_v14_apply, val_main_call0_v0_apply, val_main_call0_cst_apply, hagg, product_eq]
  rfl

end Cert.ReferenceIdeal.AsLayer

end
-- ==== Proof.lean ====
/-
  The claim: the kernel program and its reference compute one graph-convolution layer, relu (A · (x · W)).

  The three frames: both forms of the kernel program run to the end without a fault and leave their arguments as
  launched (the generated frame modules); the reference is a straight line of host operations, and its frame is its
  run with the result forgotten. The idealization rewrote no operation, so there is nothing to preserve. The value:
  on the extended reals the kernel program's result array ends at `layer` of its launched arguments (the dense
  product read off the first call's ten row tiles, the host aggregation between the calls, the activation read off
  the second call's ten row tiles), and the reference's composed term is the same `layer` of its arguments, which
  agree with the kernel's. The narrowing of the matrix operands to the short format is the identity there, and both
  matrix products are the same finite sum, so the two results are equal entry by entry for all inputs.
-/
import proofs.«126200_j42391327212273_1_alg».proof.Defs
import proofs.«126200_j42391327212273_1_alg».proof.Proof.Gen.Kernel
import proofs.«126200_j42391327212273_1_alg».proof.Proof.Gen.Kernel.Skeleton
import proofs.«126200_j42391327212273_1_alg».proof.Proof.Gen.Kernel.Launch
import proofs.«126200_j42391327212273_1_alg».proof.Proof.Gen.Kernel.Points
import proofs.«126200_j42391327212273_1_alg».proof.Proof.Gen.Kernel.Frame
import proofs.«126200_j42391327212273_1_alg».proof.Proof.Gen.KernelIdeal
import proofs.«126200_j42391327212273_1_alg».proof.Proof.Gen.KernelIdeal.Skeleton
import proofs.«126200_j42391327212273_1_alg».proof.Proof.Gen.KernelIdeal.Launch
import proofs.«126200_j42391327212273_1_alg».proof.Proof.Gen.KernelIdeal.Points
import proofs.«126200_j42391327212273_1_alg».proof.Proof.Gen.KernelIdeal.Frame
import proofs.«126200_j42391327212273_1_alg».proof.Proof.Gen.ReferenceIdeal
import proofs.«126200_j42391327212273_1_alg».proof.Proof.Gen.ReferenceIdeal.Run
import proofs.«126200_j42391327212273_1_alg».proof.Proof.Gen.ReferenceIdeal.Read
import proofs.«126200_j42391327212273_1_alg».proof.Proof.Gen.Pre_finite_inputs
import proofs.«126200_j42391327212273_1_alg».proof.Proof.Layer
import proofs.«126200_j42391327212273_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the layer of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  exact (Cert.ReferenceIdeal.Read.val_main_v14_eq _ _ _ _ _).trans (Cert.ReferenceIdeal.AsLayer.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
